-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128x1 .f32) (main_arg7 : FVec F S128x1 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg6
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S10000x128 .f32) (main_arg1 : IVec S640000 32) (main_arg2 : IVec S640000 32) (main_arg3 : FVec F S128x128 .f32) (main_arg4 : FVec F S128x128 .f32) (main_arg5 : FVec F S128 .f32) (main_arg6 : FVec F S128x1 .f32) (main_arg7 : FVec F S128x1 .f32) (main_arg8 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S1x128 : Shape := ⟨2, ![1, 128]⟩
abbrev S2000x128 : Shape := ⟨2, ![2000, 128]⟩
abbrev S1x1 : Shape := ⟨2, ![1, 1]⟩
abbrev S2000x1 : Shape := ⟨2, ![2000, 1]⟩

abbrev nBuf : Space → Nat
  | .hbm => 63
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S128x1, .f32⟩
  | .hbm, ⟨8, _⟩ => ⟨S1, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S10000x128, .f32⟩
  | .hbm, ⟨20, _⟩ => ⟨S640000x1, .i32⟩
  | .hbm, ⟨21, _⟩ => ⟨S10000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S10000, .f32⟩
  | .hbm, ⟨26, _⟩ => ⟨S640000x1, .i32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000x1, .f32⟩
  | .hbm, ⟨32, _⟩ => ⟨S10000x128, .f32⟩
  | .hbm, ⟨33, _⟩ => ⟨S10000x128, .f32⟩
  | .hbm, ⟨34, _⟩ => ⟨S1x128, .f32⟩
  | .hbm, ⟨35, _⟩ => ⟨S10000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S_, .f32⟩
  | .hbm, ⟨46, _⟩ => ⟨S10000x128, .f32⟩
  | .hbm, ⟨47, _⟩ => ⟨S640000x1, .i32⟩
  | .hbm, ⟨48, _⟩ => ⟨S10000x128, .f32⟩
  | .hbm, ⟨49, _⟩ => ⟨S_, .f32⟩
  | .hbm, ⟨50, _⟩ => ⟨S640000, .f32⟩
  | .hbm, ⟨51, _⟩ => ⟨S_, .f32⟩
  | .hbm, ⟨52, _⟩ => ⟨S10000, .f32⟩
  | .hbm, ⟨53, _⟩ => ⟨S640000x1, .i32⟩
  | .hbm, ⟨54, _⟩ => ⟨S10000, .f32⟩
  | .hbm, ⟨55, _⟩ => ⟨S_, .f32⟩
  | .hbm, ⟨56, _⟩ => ⟨S10000, .f32⟩
  | .hbm, ⟨57, _⟩ => ⟨S10000, .f32⟩
  | .hbm, ⟨58, _⟩ => ⟨S10000x1, .f32⟩
  | .hbm, ⟨59, _⟩ => ⟨S10000x128, .f32⟩
  | .hbm, ⟨60, _⟩ => ⟨S10000x128, .f32⟩
  | .hbm, ⟨61, _⟩ => ⟨S1x1, .f32⟩
  | .hbm, ⟨62, _⟩ => ⟨S10000x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x1, .f32⟩
  | .local _ .vmem, ⟨14, _⟩ => ⟨S128x1, .f32⟩
  | .local _ .vmem, ⟨15, _⟩ => ⟨S1x1, .f32⟩
  | .local _ .vmem, ⟨16, _⟩ => ⟨S2000x1, .f32⟩
  | .local _ .vmem, ⟨17, _⟩ => ⟨S2000x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S10000x128.size a
  hwx0_1 : ∀ i : grid0.Coords, EltTy.bits .f32 = 32 ∨ (Rect.block (s := S10000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S10000x128.size a
  hwx0_5 : ∀ i : grid0.Coords, EltTy.bits .f32 = 32 ∨ (Rect.block (s := S10000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S10000x1.size a
  hwx1_5 : ∀ i : grid1.Coords, EltTy.bits .f32 = 32 ∨ (Rect.block (s := S10000x1) S2000x1.size (cc1_transform_5 i) (hinb1_5 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S1x128 : Shape := ⟨2, ![1, 128]⟩
abbrev S1x1 : Shape := ⟨2, ![1, 1]⟩

abbrev nBuf : Space → Nat
  | .hbm => 82
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S128x1, .f32⟩
  | .hbm, ⟨8, _⟩ => ⟨S1, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S10000x128, .f32⟩
  | .hbm, ⟨20, _⟩ => ⟨S640000x1, .i32⟩
  | .hbm, ⟨21, _⟩ => ⟨S10000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S10000, .f32⟩
  | .hbm, ⟨26, _⟩ => ⟨S640000x1, .i32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000x1, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S1x128, .f32⟩
  | .hbm, ⟨38, _⟩ => ⟨S10000x128, .f32⟩
  | .hbm, ⟨39, _⟩ => ⟨S10000x128, .f32⟩
  | .hbm, ⟨40, _⟩ => ⟨S_, .f32⟩
  | .hbm, ⟨41, _⟩ => ⟨S10000x128, .f32⟩
  | .hbm, ⟨42, _⟩ => ⟨S10000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S_, .f32⟩
  | .hbm, ⟨53, _⟩ => ⟨S10000x128, .f32⟩
  | .hbm, ⟨54, _⟩ => ⟨S640000x1, .i32⟩
  | .hbm, ⟨55, _⟩ => ⟨S10000x128, .f32⟩
  | .hbm, ⟨56, _⟩ => ⟨S_, .f32⟩
  | .hbm, ⟨57, _⟩ => ⟨S640000, .f32⟩
  | .hbm, ⟨58, _⟩ => ⟨S_, .f32⟩
  | .hbm, ⟨59, _⟩ => ⟨S10000, .f32⟩
  | .hbm, ⟨60, _⟩ => ⟨S640000x1, .i32⟩
  | .hbm, ⟨61, _⟩ => ⟨S10000, .f32⟩
  | .hbm, ⟨62, _⟩ => ⟨S_, .f32⟩
  | .hbm, ⟨63, _⟩ => ⟨S10000, .f32⟩
  | .hbm, ⟨64, _⟩ => ⟨S10000, .f32⟩
  | .hbm, ⟨65, _⟩ => ⟨S10000x1, .f32⟩
  | .hbm, ⟨66, _⟩ => ⟨S10000x128, .f32⟩
  | .hbm, ⟨67, _⟩ => ⟨S10000x128, .f32⟩
  | .hbm, ⟨68, _⟩ => ⟨S10000x1, .f32⟩
  | .hbm, ⟨69, _⟩ => ⟨S10000x1, .f32⟩
  | .hbm, ⟨70, _⟩ => ⟨S10000x1, .f32⟩
  | .hbm, ⟨71, _⟩ => ⟨S1x1, .f32⟩
  | .hbm, ⟨72, _⟩ => ⟨S10000x1, .f32⟩
  | .hbm, ⟨73, _⟩ => ⟨S10000x1, .f32⟩
  | .hbm, ⟨74, _⟩ => ⟨S10000x1, .f32⟩
  | .hbm, ⟨75, _⟩ => ⟨S10000x1, .f32⟩
  | .hbm, ⟨76, _⟩ => ⟨S_, .f32⟩
  | .hbm, ⟨77, _⟩ => ⟨S10000x1, .f32⟩
  | .hbm, ⟨78, _⟩ => ⟨S10000x1, .f32⟩
  | .hbm, ⟨79, _⟩ => ⟨S_, .f32⟩
  | .hbm, ⟨80, _⟩ => ⟨S10000x1, .f32⟩
  | .hbm, ⟨81, _⟩ => ⟨S10000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S10000x1 : S_.BroadcastsInDim S10000x1 (![] : Fin 0 → Fin S10000x1.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.KernelRun.lean ====
/-
  The kernel program's run, with its RESULT array named.

  The program is two pallas regions among two stretches of host operations.  Its run is the library's
  several-regions launch over the four generated segments (host stretch, region 0, host stretch, region 1); the
  generated frame theorem reads only the nine argument arrays off the last boundary's contents.  Here the same
  launch is read at one more buffer: the second region's output array, which is the program's result.  At the last
  boundary that buffer holds what region 1's pipeline leaves in its output window's array after all five grid points.
-/
import proofs.«141958_j5446018532030_1_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the contents
    of the last segment boundary (what region 1's write-backs leave), and the nine arguments end as launched. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

/-- The result buffer at the last boundary is what region 1's pipeline leaves in its output window's array. -/
theorem result_eq (c : Dev nD) :
    W4 m ρ c (Proc.devRef .tc main_v41) = (dat1 (V3 m ρ) c).arrAt 5 cfg1.N := W4_arr m ρ c 5

end Cert.KernelIdeal.SageRun

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.Spec.lean ====
/-
  THE SPECIFICATION: one GraphSAGE layer as a function of its operand arrays, index by index, on the extended reals.

  A layer takes the node features `x : [N, K]`, the aggregated neighbour features `a : [N, K]`, two weight matrices
  `ws wn : [K, M]` and a bias `b` (given per column), and computes at row `r`, column `j`

      lin r j = Σ_k x[r,k]·ws[k,j]  +  Σ_k a[r,k]·wn[k,j]  +  b[j]

  followed by an activation: `max(·, 0)` for the hidden layer, the logistic function `1 / (1 + e^(-·))` for the output
  layer.  Both programs compute exactly these two functions (the kernel tile by tile, the reference on whole arrays),
  so no algebraic law beyond re-indexing a contraction is needed and no input has to be finite.
-/
import Idealize.ShloMosaic.Lib.ValueIdx
import Idealize.ShloMosaic.PureOps.Ideal

noncomputable section

open scoped BigOperators

namespace Cert.Sage

open Idealize.ShloMosaic Idealize.ShloMosaic.ValueIdx

variable {N K M : Nat}

/-- The affine part of a layer at row `r`, column `j`: the two matrix products' entries and the bias, added in the
    order both programs add them (self term, neighbour term, bias). -/
def lin (x a : (⟨2, ![N, K]⟩ : Shape).Idx → EReal) (ws wn : (⟨2, ![K, M]⟩ : Shape).Idx → EReal) (b : Fin M → EReal)
    (r : Fin N) (j : Fin M) : EReal :=
  (∑ k : Fin K, x (ix2 r k) * ws (ix2 k j)) + (∑ k : Fin K, a (ix2 r k) * wn (ix2 k j)) + b j

/-- The hidden layer: the affine part, then the maximum with the f32 zero word's value. -/
def reluLayer (x a : (⟨2, ![N, K]⟩ : Shape).Idx → EReal) (ws wn : (⟨2, ![K, M]⟩ : Shape).Idx → EReal) (b : Fin M → EReal) :
    (⟨2, ![N, M]⟩ : Shape).Idx → EReal :=
  fun i => max (lin x a ws wn b (i 0) (i 1)) (Ideal.ofBits .f32 0x00000000#32)

/-- The output layer: the affine part, then the logistic function of the extended reals. -/
def sigmoidLayer (x a : (⟨2, ![N, K]⟩ : Shape).Idx → EReal) (ws wn : (⟨2, ![K, M]⟩ : Shape).Idx → EReal) (b : Fin M → EReal) :
    (⟨2, ![N, M]⟩ : Shape).Idx → EReal :=
  fun i => Ideal.logistic (lin x a ws wn b (i 0) (i 1))

/-- A layer's entry depends only on the operand entries it reads: if row `r'` of `x'`, `a'` is row `r` of `x`, `a`, the
    weight matrices agree entry by entry, the columns are the same and the biases agree there, then the affine parts
    are equal.  This is what lets a row tile of the kernel be compared with the whole-array function. -/
theorem lin_congr {N' : Nat} (x a : (⟨2, ![N, K]⟩ : Shape).Idx → EReal) (x' a' : (⟨2, ![N', K]⟩ : Shape).Idx → EReal)
    (ws wn ws' wn' : (⟨2, ![K, M]⟩ : Shape).Idx → EReal) (b b' : Fin M → EReal) (r : Fin N) (r' : Fin N') (j j' : Fin M)
    (hj : j' = j) (hx : ∀ k, x' (ix2 r' k) = x (ix2 r k)) (ha : ∀ k, a' (ix2 r' k) = a (ix2 r k))
    (hws : ∀ y, ws' y = ws y) (hwn : ∀ y, wn' y = wn y) (hb : b' j' = b j) :
    lin x' a' ws' wn' b' r' j' = lin x a ws wn b r j := by
  subst hj
  unfold lin
  rw [hb]
  congr 2
  · exact Finset.sum_congr rfl fun k _ => by rw [hx k, hws]
  · exact Finset.sum_congr rfl fun k _ => by rw [ha k, hwn]

end Cert.Sage

end
-- ==== Proof.KernelBody.lean ====
/-
  THE KERNEL BODIES AS LAYERS.  One grid point of the first pallas region loads a [2000, 128] tile of the features, the
  same tile of the aggregated features, the two whole weight matrices and the bias as a [1, 128] row, and stores

      max( tile·W_self + aggTile·W_neigh + bias , 0 );

  one grid point of the second region does the same with [128, 1] weights, a [1, 1] bias and the logistic function in
  place of the maximum.  At the ideal values the roundings to bf16 are the identity, a matmul into the zero
  accumulator is the plain contraction sum, and the row broadcast of the bias reads its column: each body IS the
  specification's layer on the tile, with the bias read from row 0 of its [1, M] block.
-/
import proofs.«141958_j5446018532030_1_alg».proof.Proof.Gen.KernelIdeal.Skeleton
import proofs.«141958_j5446018532030_1_alg».proof.Proof.LibPlainDot
import proofs.«141958_j5446018532030_1_alg».proof.Proof.Spec
import Idealize.ShloMosaic.Lib.Pipeline.Value
import Idealize.ShloMosaic.Lib.ValueIdx

noncomputable section

namespace Cert.KernelIdeal.SageBody

open Cert.KernelIdeal Cert.KernelIdeal.Gen
open Idealize.ShloMosaic Idealize.ShloMosaic.ValueIdx Cert.Sage Cert.Lib.PlainDot

/-- The hidden layer's matmul dimension numbers are the plain product's. -/
theorem dot0_eq : dot_S2000x128_S128x128_S2000x128_1_0_0_1_n_n = DotDims.plain 2000 128 128 := rfl
/-- The output layer's matmul dimension numbers are the plain product's. -/
theorem dot1_eq : dot_S2000x128_S128x1_S2000x1_1_0_0_1_n_n = DotDims.plain 2000 128 1 := rfl

/-- A [1, M] row broadcast down the rows of an [R, M] block reads, at (p, q), the row's column q. -/
theorem bias_row_apply {R M : Nat} (v : (⟨2, ![1, M]⟩ : Shape).Idx → EReal)
    (h : (⟨2, ![1, M]⟩ : Shape).Broadcasts ⟨2, ![R, M]⟩) (p : Fin R) (q : Fin M) :
    broadcastTo ⟨2, ![R, M]⟩ v h (ix2 p q) = v (ix2 0 q) := by
  refine broadcastTo_apply v h (ix2 p q) (ix2 0 q) fun a => ?_
  match a with
  | ⟨0, _⟩ => show (0 : Nat) = if (1 : Nat) = 1 then 0 else _; rw [if_pos rfl]
  | ⟨1, _⟩ =>
    show q.val = if M = 1 then 0 else q.val
    split
    · next h1 => have := q.isLt; omega
    · rfl

/-- The first region's payload is the hidden layer of the loaded tiles. -/
theorem pay0_eq (x0 x1 : Vec Ideal S2000x128 .f32) (x2 x3 : Vec Ideal S128x128 .f32) (x4 : Vec Ideal S1x128 .f32) :
    k0_pay1 (F := Ideal) x0 x1 x2 x3 x4 = reluLayer x0 x1 x2 x3 (fun q => x4 (ix2 0 q)) := by
  funext i
  obtain ⟨p, q, rfl⟩ : ∃ (p : Fin 2000) (q : Fin 128), i = ix2 p q := ⟨i 0, i 1, eq_ix2 i⟩
  unfold k0_pay1 reluLayer lin
  show max (matmul (F := Ideal) (φ₁ := .bf16) (φ₂ := .bf16) dot_S2000x128_S128x128_S2000x128_1_0_0_1_n_n none x0 x2 (constant (F := Ideal) S2000x128 .f32 0x00000000#32) (ix2 p q)
        + matmul (F := Ideal) (φ₁ := .bf16) (φ₂ := .bf16) dot_S2000x128_S128x128_S2000x128_1_0_0_1_n_n none (shapeCast S2000x128 x1 shapeCasts_S2000x128_S2000x128) x3 (constant (F := Ideal) S2000x128 .f32 0x00000000#32) (ix2 p q)
        + broadcastTo S2000x128 (shapeCast S1x128 x4 shapeCasts_S1x128_S1x128) broadcasts_S1x128_S2000x128 (ix2 p q))
      (Ideal.ofBits .f32 0x00000000#32) = _
  rw [shapeCast_self, shapeCast_self, dot0_eq, matmul_zero_plain_apply, matmul_zero_plain_apply,
    bias_row_apply x4 broadcasts_S1x128_S2000x128 p q]

/-- The second region's payload is the output layer of the loaded tiles. -/
theorem pay1_eq (x0 x1 : Vec Ideal S2000x128 .f32) (x2 x3 : Vec Ideal S128x1 .f32) (x4 : Vec Ideal S1x1 .f32) :
    k1_pay1 (F := Ideal) x0 x1 x2 x3 x4 = sigmoidLayer x0 x1 x2 x3 (fun q => x4 (ix2 0 q)) := by
  funext i
  obtain ⟨p, q, rfl⟩ : ∃ (p : Fin 2000) (q : Fin 1), i = ix2 p q := ⟨i 0, i 1, eq_ix2 i⟩
  unfold k1_pay1 sigmoidLayer lin
  show Ideal.logistic (matmul (F := Ideal) (φ₁ := .bf16) (φ₂ := .bf16) dot_S2000x128_S128x1_S2000x1_1_0_0_1_n_n none (shapeCast S2000x128 x0 shapeCasts_S2000x128_S2000x128) x2 (constant (F := Ideal) S2000x1 .f32 0x00000000#32) (ix2 p q)
        + matmul (F := Ideal) (φ₁ := .bf16) (φ₂ := .bf16) dot_S2000x128_S128x1_S2000x1_1_0_0_1_n_n none (shapeCast S2000x128 x1 shapeCasts_S2000x128_S2000x128) x3 (constant (F := Ideal) S2000x1 .f32 0x00000000#32) (ix2 p q)
        + broadcastTo S2000x1 (shapeCast S1x1 x4 shapeCasts_S1x1_S1x1) broadcasts_S1x1_S2000x1 (ix2 p q)) = _
  rw [shapeCast_self, shapeCast_self, shapeCast_self, dot1_eq, matmul_zero_plain_apply, matmul_zero_plain_apply,
    bias_row_apply x4 broadcasts_S1x1_S2000x1 p q]

end Cert.KernelIdeal.SageBody

end
-- ==== Proof.KernelBlocks.lean ====
/-
  FROM TILES TO ARRAYS.  Each pallas region walks five grid points; point `t` stages rows 2000·t … 2000·t + 1999 of the
  two feature arrays, the whole weight matrices and the whole bias block, and writes its result tile back to the same
  rows of the output array.  A layer's entry at row `r` reads only row `r` of the two feature arrays, so the tile a
  point writes is exactly the corresponding block of the layer applied to the WHOLE arrays; the five blocks tile the
  output array (row `r` lies in block `r / 2000`), hence after the region the output array is the whole-array layer.
  Stated for any contents `V` the region may be entered with.
-/
import proofs.«141958_j5446018532030_1_alg».proof.Proof.Gen.KernelIdeal.Frame
import proofs.«141958_j5446018532030_1_alg».proof.Proof.KernelBody
import Idealize.ShloMosaic.Lib.Pipeline.Value

set_option maxRecDepth 16384

noncomputable section

namespace Cert.KernelIdeal.SageBlocks

open Cert.KernelIdeal Cert.KernelIdeal.Gen Cert.KernelIdeal.SageBody
open Idealize.ShloMosaic Idealize.ShloMosaic.TcCoe Idealize.SL.Sem Idealize.ShloMosaic.ValueIdx Cert.Sage
open Idealize.ShloMosaic.Pipeline (Dat)

theorem hz : (![0, 0] : Fin 2 → Nat) = fun _ => 0 := funext fun a => by fin_cases a <;> rfl

/-! ## A layer on a row tile is the tile of the layer

Over variables of the literal shapes: a [2000, 128] tile `x`, `a` that is rows `o …` of [10000, 128] arrays `X`, `A`,
weights and a bias block that are the whole arrays'. -/

theorem relu_tile (X A : S10000x128.Idx → EReal) (Ws Wn : S128x128.Idx → EReal) (B : S1x128.Idx → EReal)
    (x a : S2000x128.Idx → EReal) (ws wn : S128x128.Idx → EReal) (b : S1x128.Idx → EReal)
    (j : S2000x128.Idx) (i : S10000x128.Idx) (o : Nat)
    (hi0 : (i 0).val = o + (j 0).val) (hi1 : (i 1).val = (j 1).val)
    (hx : ∀ (y : S2000x128.Idx) (z : S10000x128.Idx), (z 0).val = o + (y 0).val → (z 1).val = (y 1).val → x y = X z)
    (ha : ∀ (y : S2000x128.Idx) (z : S10000x128.Idx), (z 0).val = o + (y 0).val → (z 1).val = (y 1).val → a y = A z)
    (hws : ∀ y, ws y = Ws y) (hwn : ∀ y, wn y = Wn y) (hb : ∀ y, b y = B y) :
    reluLayer (N := 2000) (K := 128) (M := 128) x a ws wn (fun q => b (ix2 0 q)) j
      = reluLayer (N := 10000) (K := 128) (M := 128) X A Ws Wn (fun q => B (ix2 0 q)) i := by
  unfold reluLayer
  refine congrArg (fun v => max v (Ideal.ofBits .f32 0x00000000#32)) ?_
  exact lin_congr X A x a Ws Wn ws wn (fun q => B (ix2 0 q)) (fun q => b (ix2 0 q)) (i 0) (j 0) (i 1) (j 1)
    (Fin.ext hi1.symm) (fun k => hx _ _ hi0 rfl) (fun k => ha _ _ hi0 rfl) hws hwn (by
      show b (ix2 0 (j 1)) = B (ix2 0 (i 1))
      rw [hb, show (i 1 : Fin 128) = j 1 from Fin.ext hi1])

theorem sigmoid_tile (X A : S10000x128.Idx → EReal) (Ws Wn : S128x1.Idx → EReal) (B : S1x1.Idx → EReal)
    (x a : S2000x128.Idx → EReal) (ws wn : S128x1.Idx → EReal) (b : S1x1.Idx → EReal)
    (j : S2000x1.Idx) (i : S10000x1.Idx) (o : Nat)
    (hi0 : (i 0).val = o + (j 0).val) (hi1 : (i 1).val = (j 1).val)
    (hx : ∀ (y : S2000x128.Idx) (z : S10000x128.Idx), (z 0).val = o + (y 0).val → (z 1).val = (y 1).val → x y = X z)
    (ha : ∀ (y : S2000x128.Idx) (z : S10000x128.Idx), (z 0).val = o + (y 0).val → (z 1).val = (y 1).val → a y = A z)
    (hws : ∀ y, ws y = Ws y) (hwn : ∀ y, wn y = Wn y) (hb : ∀ y, b y = B y) :
    sigmoidLayer (N := 2000) (K := 128) (M := 1) x a ws wn (fun q => b (ix2 0 q)) j
      = sigmoidLayer (N := 10000) (K := 128) (M := 1) X A Ws Wn (fun q => B (ix2 0 q)) i := by
  unfold sigmoidLayer
  refine congrArg Ideal.logistic ?_
  exact lin_congr X A x a Ws Wn ws wn (fun q => B (ix2 0 q)) (fun q => b (ix2 0 q)) (i 0) (j 0) (i 1) (j 1)
    (Fin.ext hi1.symm) (fun k => hx _ _ hi0 rfl) (fun k => ha _ _ hi0 rfl) hws hwn (by
      show b (ix2 0 (j 1)) = B (ix2 0 (i 1))
      rw [hb, show (i 1 : Fin 1) = j 1 from Fin.ext hi1])

variable (V : (c : Dev nD) → (b : Ref sig .tc) → Buf (Elt Ideal) ((c : Thread nD τ).loc b))

/-! ## Region 0: the hidden layer -/

/-- The hidden layer of the arrays region 0 is entered with. -/
def hidden (c : Dev nD) : S10000x128.Idx → EReal :=
  reluLayer (N := 10000) (K := 128) (M := 128) (V c main_arg0) (V c main_v18) (V c main_arg3) (V c main_arg4)
    (fun q => V c main_v19 (ix2 0 q))

/-- The printed index maps over the grid: the two feature windows and the output window sit at block row `t`, the
    weight and bias windows at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 5 :=
  (by decide +kernel : ∀ t : Fin grid0.N, _)

/-- What point `t` writes back is block `t` of the whole-array hidden layer. -/
theorem flushed0_eq (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  rw [pay0_eq]
  obtain ⟨e00, e01, e10, e11, e20, e21, e30, e31, e40, e41, e50, e51, ht⟩ := idx0 t
  funext j
  show reluLayer (N := 2000) (K := 128) (M := 128) (iblk0 V c 0 t) (iblk0 V c 1 t) (iblk0 V c 2 t) (iblk0 V c 3 t)
      (fun q => iblk0 V c 4 t (ix2 0 q)) j = hidden V c (((cfg0.win 5).blk t).view.emb j)
  unfold hidden
  refine relu_tile (V c main_arg0) (V c main_v18) (V c main_arg3) (V c main_arg4) (V c main_v19)
    (iblk0 V c 0 t) (iblk0 V c 1 t) (iblk0 V c 2 t) (iblk0 V c 3 t) (iblk0 V c 4 t) j (((cfg0.win 5).blk t).view.emb j)
    (t.val * 2000) ?_ ?_ ?_ ?_ ?_ ?_ ?_
  · show win0_5.index t (0 : Fin 2) * 2000 + 1 * (j 0).val = t.val * 2000 + (j 0).val
    rw [e50]; omega
  · show win0_5.index t (1 : Fin 2) * 128 + 1 * (j 1).val = (j 1).val
    rw [e51]; omega
  · intro y z h0 h1
    show V c main_arg0 (((cfg0.win 0).blk t).view.emb y) = V c main_arg0 z
    refine congrArg (V c main_arg0) (funext fun a => Fin.ext ?_)
    match a with
    | ⟨0, _⟩ => show win0_0.index t (0 : Fin 2) * 2000 + 1 * (y 0).val = (z 0).val; rw [e00, h0]; omega
    | ⟨1, _⟩ => show win0_0.index t (1 : Fin 2) * 128 + 1 * (y 1).val = (z 1).val; rw [e01, h1]; omega
  · intro y z h0 h1
    show V c main_v18 (((cfg0.win 1).blk t).view.emb y) = V c main_v18 z
    refine congrArg (V c main_v18) (funext fun a => Fin.ext ?_)
    match a with
    | ⟨0, _⟩ => show win0_1.index t (0 : Fin 2) * 2000 + 1 * (y 0).val = (z 0).val; rw [e10, h0]; omega
    | ⟨1, _⟩ => show win0_1.index t (1 : Fin 2) * 128 + 1 * (y 1).val = (z 1).val; rw [e11, h1]; omega
  · intro y
    show V c main_arg3 (((cfg0.win 2).blk t).view.emb y) = V c main_arg3 y
    refine congrArg (V c main_arg3) (funext fun a => Fin.ext ?_)
    match a with
    | ⟨0, _⟩ => show win0_2.index t (0 : Fin 2) * 128 + 1 * (y 0).val = (y 0).val; rw [e20]; omega
    | ⟨1, _⟩ => show win0_2.index t (1 : Fin 2) * 128 + 1 * (y 1).val = (y 1).val; rw [e21]; omega
  · intro y
    show V c main_arg4 (((cfg0.win 3).blk t).view.emb y) = V c main_arg4 y
    refine congrArg (V c main_arg4) (funext fun a => Fin.ext ?_)
    match a with
    | ⟨0, _⟩ => show win0_3.index t (0 : Fin 2) * 128 + 1 * (y 0).val = (y 0).val; rw [e30]; omega
    | ⟨1, _⟩ => show win0_3.index t (1 : Fin 2) * 128 + 1 * (y 1).val = (y 1).val; rw [e31]; omega
  · intro y
    show V c main_v19 (((cfg0.win 4).blk t).view.emb y) = V c main_v19 y
    refine congrArg (V c main_v19) (funext fun a => Fin.ext ?_)
    match a with
    | ⟨0, _⟩ => show win0_4.index t (0 : Fin 2) * 1 + 1 * (y 0).val = (y 0).val; rw [e40]; omega
    | ⟨1, _⟩ => show win0_4.index t (1 : Fin 2) * 128 + 1 * (y 1).val = (y 1).val; rw [e41]; omega

/-- An index of the output array is in point `t`'s block iff each coordinate is in the block's range on its axis. -/
theorem mem_blk0 (t : Fin cfg0.N) (i : S10000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v20).slice (win0_5.rect t)).set ↔ _
  rw [View.set_slice_whole, Rect.mem_set_unit]
  exact Iff.rfl

/-- Row `r` of the output array lies in the block of point `r / 2000`. -/
theorem cover0 (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : grid0.N = 5 := N_0
  let t : Fin cfg0.N := ⟨(i 0).val / 2000, by show (i 0).val / 2000 < grid0.N; omega⟩
  obtain ⟨e00, e01, e10, e11, e20, e21, e30, e31, e40, e41, e50, e51, ht⟩ := idx0 t
  refine ⟨t, flush0_5 t, ?_⟩
  rw [mem_blk0]
  intro a
  match a with
  | ⟨0, _⟩ =>
    show win0_5.index t (0 : Fin 2) * 2000 ≤ (i 0).val ∧ (i 0).val < win0_5.index t (0 : Fin 2) * 2000 + 2000
    rw [e50]; show (i 0).val / 2000 * 2000 ≤ (i 0).val ∧ (i 0).val < (i 0).val / 2000 * 2000 + 2000; omega
  | ⟨1, _⟩ =>
    show win0_5.index t (1 : Fin 2) * 128 ≤ (i 1).val ∧ (i 1).val < win0_5.index t (1 : Fin 2) * 128 + 128
    rw [e51]; omega

/-- After region 0 its output array is the hidden layer of the arrays it was entered with. -/
theorem final0 (c : Dev nD) : (dat0 V c).arrAt 5 cfg0.N = hidden V c :=
  (dat0 V c).arrAt_eq_of_cover 5 (hidden V c) (fun t _ => flushed0_eq V c t) cover0

/-! ## Region 1: the output layer -/

/-- The output layer of the arrays region 1 is entered with. -/
def output (c : Dev nD) : S10000x1.Idx → EReal :=
  sigmoidLayer (N := 10000) (K := 128) (M := 1) (V c main_v20) (V c main_v39) (V c main_arg6) (V c main_arg7)
    (fun q => V c main_v40 (ix2 0 q))

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 5 :=
  (by decide +kernel : ∀ t : Fin grid1.N, _)

/-- What point `t` writes back is block `t` of the whole-array output layer. -/
theorem flushed1_eq (c : Dev nD) (t : Fin cfg1.N) :
    (dat1 V c).flushed 5 t = ((cfg1.win 5).blk t).view.read (Elt Ideal) (output V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x1) hz, View.ld_unit_zero (S := S1x1) hz]
  rw [pay1_eq]
  obtain ⟨e00, e01, e10, e11, e20, e21, e30, e31, e40, e41, e50, e51, ht⟩ := idx1 t
  funext j
  show sigmoidLayer (N := 2000) (K := 128) (M := 1) (iblk1 V c 0 t) (iblk1 V c 1 t) (iblk1 V c 2 t) (iblk1 V c 3 t)
      (fun q => iblk1 V c 4 t (ix2 0 q)) j = output V c (((cfg1.win 5).blk t).view.emb j)
  unfold output
  refine sigmoid_tile (V c main_v20) (V c main_v39) (V c main_arg6) (V c main_arg7) (V c main_v40)
    (iblk1 V c 0 t) (iblk1 V c 1 t) (iblk1 V c 2 t) (iblk1 V c 3 t) (iblk1 V c 4 t) j (((cfg1.win 5).blk t).view.emb j)
    (t.val * 2000) ?_ ?_ ?_ ?_ ?_ ?_ ?_
  · show win1_5.index t (0 : Fin 2) * 2000 + 1 * (j 0).val = t.val * 2000 + (j 0).val
    rw [e50]; omega
  · show win1_5.index t (1 : Fin 2) * 1 + 1 * (j 1).val = (j 1).val
    rw [e51]; omega
  · intro y z h0 h1
    show V c main_v20 (((cfg1.win 0).blk t).view.emb y) = V c main_v20 z
    refine congrArg (V c main_v20) (funext fun a => Fin.ext ?_)
    match a with
    | ⟨0, _⟩ => show win1_0.index t (0 : Fin 2) * 2000 + 1 * (y 0).val = (z 0).val; rw [e00, h0]; omega
    | ⟨1, _⟩ => show win1_0.index t (1 : Fin 2) * 128 + 1 * (y 1).val = (z 1).val; rw [e01, h1]; omega
  · intro y z h0 h1
    show V c main_v39 (((cfg1.win 1).blk t).view.emb y) = V c main_v39 z
    refine congrArg (V c main_v39) (funext fun a => Fin.ext ?_)
    match a with
    | ⟨0, _⟩ => show win1_1.index t (0 : Fin 2) * 2000 + 1 * (y 0).val = (z 0).val; rw [e10, h0]; omega
    | ⟨1, _⟩ => show win1_1.index t (1 : Fin 2) * 128 + 1 * (y 1).val = (z 1).val; rw [e11, h1]; omega
  · intro y
    show V c main_arg6 (((cfg1.win 2).blk t).view.emb y) = V c main_arg6 y
    refine congrArg (V c main_arg6) (funext fun a => Fin.ext ?_)
    match a with
    | ⟨0, _⟩ => show win1_2.index t (0 : Fin 2) * 128 + 1 * (y 0).val = (y 0).val; rw [e20]; omega
    | ⟨1, _⟩ => show win1_2.index t (1 : Fin 2) * 1 + 1 * (y 1).val = (y 1).val; rw [e21]; omega
  · intro y
    show V c main_arg7 (((cfg1.win 3).blk t).view.emb y) = V c main_arg7 y
    refine congrArg (V c main_arg7) (funext fun a => Fin.ext ?_)
    match a with
    | ⟨0, _⟩ => show win1_3.index t (0 : Fin 2) * 128 + 1 * (y 0).val = (y 0).val; rw [e30]; omega
    | ⟨1, _⟩ => show win1_3.index t (1 : Fin 2) * 1 + 1 * (y 1).val = (y 1).val; rw [e31]; omega
  · intro y
    show V c main_v40 (((cfg1.win 4).blk t).view.emb y) = V c main_v40 y
    refine congrArg (V c main_v40) (funext fun a => Fin.ext ?_)
    match a with
    | ⟨0, _⟩ => show win1_4.index t (0 : Fin 2) * 1 + 1 * (y 0).val = (y 0).val; rw [e40]; omega
    | ⟨1, _⟩ => show win1_4.index t (1 : Fin 2) * 1 + 1 * (y 1).val = (y 1).val; rw [e41]; omega

theorem mem_blk1 (t : Fin cfg1.N) (i : S10000x1.Idx) :
    i ∈ ((cfg1.win 5).blk t).view.set ↔ ∀ a : Fin 2, win1_5.index t a * S2000x1.size a ≤ (i a).val ∧ (i a).val < win1_5.index t a * S2000x1.size a + S2000x1.size a := by
  show i ∈ ((View.whole main_v41).slice (win1_5.rect t)).set ↔ _
  rw [View.set_slice_whole, Rect.mem_set_unit]
  exact Iff.rfl

theorem cover1 (i : S10000x1.Idx) :
    ∃ t : Fin cfg1.N, (cfg1.win 5).flush t = true ∧ i ∈ ((cfg1.win 5).blk t).view.set := by
  have hi0 : (i 0).val < 10000 := (i 0).isLt
  have hi1 : (i 1).val < 1 := (i 1).isLt
  have hN : grid1.N = 5 := N_1
  let t : Fin cfg1.N := ⟨(i 0).val / 2000, by show (i 0).val / 2000 < grid1.N; omega⟩
  obtain ⟨e00, e01, e10, e11, e20, e21, e30, e31, e40, e41, e50, e51, ht⟩ := idx1 t
  refine ⟨t, flush1_5 t, ?_⟩
  rw [mem_blk1]
  intro a
  match a with
  | ⟨0, _⟩ =>
    show win1_5.index t (0 : Fin 2) * 2000 ≤ (i 0).val ∧ (i 0).val < win1_5.index t (0 : Fin 2) * 2000 + 2000
    rw [e50]; show (i 0).val / 2000 * 2000 ≤ (i 0).val ∧ (i 0).val < (i 0).val / 2000 * 2000 + 2000; omega
  | ⟨1, _⟩ =>
    show win1_5.index t (1 : Fin 2) * 1 ≤ (i 1).val ∧ (i 1).val < win1_5.index t (1 : Fin 2) * 1 + 1
    rw [e51]; omega

/-- After region 1 its output array is the output layer of the arrays it was entered with. -/
theorem final1 (c : Dev nD) : (dat1 V c).arrAt 5 cfg1.N = output V c :=
  (dat1 V c).arrAt_eq_of_cover 5 (output V c) (fun t _ => flushed1_eq V c t) cover1

end Cert.KernelIdeal.SageBlocks

end
-- ==== Proof.KernelHost.lean ====
/-
  THE HOST STRETCHES OF THE KERNEL PROGRAM, READ.

  Before each pallas region the program runs a stretch of host operations: the mean aggregation of a feature array
  over the edge list (negative source indices wrapped by the node count, a row gather at the sources, a scatter-add
  of the gathered rows at the destinations, the same scatter-add of ones for the in-degree, the maximum of the degree
  with one, and the quotient), and the reshape of a bias vector to a one-row matrix.  The aggregation is kept as ONE
  function `meanAgg` of the feature array and the two index arrays: nothing below opens it.

  Read here: what each window array of region 0 holds at the region's entry in terms of the launch memory, and what
  each window array of region 1 holds at its entry in terms of the launch memory and region 0's output array.
-/
import proofs.«141958_j5446018532030_1_alg».proof.Proof.Gen.KernelIdeal.Frame
import Idealize.ShloMosaic.Lib.StableHlo.Run

set_option maxRecDepth 16384

noncomputable section

namespace Cert.KernelIdeal.SageHost

open Cert.KernelIdeal Cert.KernelIdeal.Gen
open Idealize.ShloMosaic Idealize.ShloMosaic.TcCoe Idealize.SL.Sem Idealize.ShloMosaic.StableHlo

variable {F : FTy → Type} [FloatOps F]

/-- The source indices as the gather reads them: a negative index has the node count added. -/
def wrapSrc (src : (⟨S640000, .i32⟩ : BufTy).Contents (Elt F)) : (⟨S640000, .i32⟩ : BufTy).Contents (Elt F) :=
  select (cmpi .slt src (broadcastInDim S640000 ![] bcast_S_S640000 (constantI S_ 32 0#32 : (⟨S_, .i32⟩ : BufTy).Contents (Elt F))))
    (addi src (broadcastInDim S640000 ![] bcast_S_S640000 (constantI S_ 32 10000#32 : (⟨S_, .i32⟩ : BufTy).Contents (Elt F)))) src

/-- The sum over incoming edges of the source rows: a gather of rows at the sources, scatter-added at the destinations
    into zeros. -/
def msgSum (h : (⟨S10000x128, .f32⟩ : BufTy).Contents (Elt F)) (src dst : (⟨S640000, .i32⟩ : BufTy).Contents (Elt F)) :
    (⟨S10000x128, .f32⟩ : BufTy).Contents (Elt F) :=
  Host.scatterAdd scatter_S10000x128_S640000x1_S640000x128_1_0_0_1
    (broadcastInDim S10000x128 ![] bcast_S_S10000x128 (constant S_ .f32 0x00000000#32 : (⟨S_, .f32⟩ : BufTy).Contents (Elt F)))
    (broadcastInDim S640000x1 ![0] bcast_S640000_S640000x1_0 dst)
    (Host.gather gather_S10000x128_S640000x1_S640000x128_1_0_n_n_0_1_1128 h
      (broadcastInDim S640000x1 ![0] bcast_S640000_S640000x1_0 (wrapSrc src)))

/-- The in-degree: ones scatter-added at the destinations into zeros. -/
def degree (dst : (⟨S640000, .i32⟩ : BufTy).Contents (Elt F)) : (⟨S10000, .f32⟩ : BufTy).Contents (Elt F) :=
  Host.scatterAdd scatter_S10000_S640000x1_S640000_n_0_0_1
    (broadcastInDim S10000 ![] bcast_S_S10000 (constant S_ .f32 0x00000000#32 : (⟨S_, .f32⟩ : BufTy).Contents (Elt F)))
    (broadcastInDim S640000x1 ![0] bcast_S640000_S640000x1_0 dst)
    (broadcastInDim S640000 ![] bcast_S_S640000 (constant S_ .f32 0x3F800000#32 : (⟨S_, .f32⟩ : BufTy).Contents (Elt F)))

/-- The mean aggregation: the edge sum divided, row by row, by the in-degree or one, whichever is larger. -/
def meanAgg (h : (⟨S10000x128, .f32⟩ : BufTy).Contents (Elt F)) (src dst : (⟨S640000, .i32⟩ : BufTy).Contents (Elt F)) :
    (⟨S10000x128, .f32⟩ : BufTy).Contents (Elt F) :=
  Host.divf (msgSum h src dst)
    (broadcastInDim S10000x128 ![0, 1] bcast_S10000x1_S10000x128_0_1
      (broadcastInDim S10000x1 ![0] bcast_S10000_S10000x1_0
        (maximumf (degree dst)
          (broadcastInDim S10000 ![] bcast_S_S10000 (constant S_ .f32 0x3F800000#32 : (⟨S_, .f32⟩ : BufTy).Contents (Elt F))))))

variable (m : (ℓ : Loc nD τ sig) → Buf (Elt F) ℓ) (ρ : Dev nD → PrngReg)

/-! ## The entry of region 0 -/

theorem entry0_x (c : Dev nD) : V1 m ρ c main_arg0 = m ((c : Thread nD τ).loc main_arg0) := by
  show StableHlo.after hostOps0 (W0 m ρ c) (Proc.devRef .tc main_arg0) = _
  dsimp only [hostOps0]; after_results_simp <;> rfl
theorem entry0_ws (c : Dev nD) : V1 m ρ c main_arg3 = m ((c : Thread nD τ).loc main_arg3) := by
  show StableHlo.after hostOps0 (W0 m ρ c) (Proc.devRef .tc main_arg3) = _
  dsimp only [hostOps0]; after_results_simp <;> rfl
theorem entry0_wn (c : Dev nD) : V1 m ρ c main_arg4 = m ((c : Thread nD τ).loc main_arg4) := by
  show StableHlo.after hostOps0 (W0 m ρ c) (Proc.devRef .tc main_arg4) = _
  dsimp only [hostOps0]; after_results_simp <;> rfl
theorem entry0_src (c : Dev nD) : W1 m ρ c (Proc.devRef .tc main_arg1) = m ((c : Thread nD τ).loc main_arg1) := by
  show StableHlo.after hostOps0 (W0 m ρ c) (Proc.devRef .tc main_arg1) = _
  dsimp only [hostOps0]; after_results_simp <;> rfl
theorem entry0_dst (c : Dev nD) : W1 m ρ c (Proc.devRef .tc main_arg2) = m ((c : Thread nD τ).loc main_arg2) := by
  show StableHlo.after hostOps0 (W0 m ρ c) (Proc.devRef .tc main_arg2) = _
  dsimp only [hostOps0]; after_results_simp <;> rfl
theorem entry0_w6 (c : Dev nD) : W1 m ρ c (Proc.devRef .tc main_arg6) = m ((c : Thread nD τ).loc main_arg6) := by
  show StableHlo.after hostOps0 (W0 m ρ c) (Proc.devRef .tc main_arg6) = _
  dsimp only [hostOps0]; after_results_simp <;> rfl
theorem entry0_w7 (c : Dev nD) : W1 m ρ c (Proc.devRef .tc main_arg7) = m ((c : Thread nD τ).loc main_arg7) := by
  show StableHlo.after hostOps0 (W0 m ρ c) (Proc.devRef .tc main_arg7) = _
  dsimp only [hostOps0]; after_results_simp <;> rfl
theorem entry0_b8 (c : Dev nD) : W1 m ρ c (Proc.devRef .tc main_arg8) = m ((c : Thread nD τ).loc main_arg8) := by
  show StableHlo.after hostOps0 (W0 m ρ c) (Proc.devRef .tc main_arg8) = _
  dsimp only [hostOps0]; after_results_simp <;> rfl

set_option maxHeartbeats 4000000 in
/-- The aggregated features region 0 reads are the mean aggregation of the launch features. -/
theorem entry0_agg (c : Dev nD) :
    V1 m ρ c main_v18 = meanAgg (m ((c : Thread nD τ).loc main_arg0)) (m ((c : Thread nD τ).loc main_arg1)) (m ((c : Thread nD τ).loc main_arg2)) := by
  show StableHlo.after hostOps0 (W0 m ρ c) (Proc.devRef .tc main_v18) = _
  dsimp only [hostOps0]; after_results_simp <;> rfl

/-- The bias region 0 reads is the launch bias vector as a one-row matrix. -/
theorem entry0_bias (c : Dev nD) :
    V1 m ρ c main_v19 = shapeCast S1x128 (m ((c : Thread nD τ).loc main_arg5)) shapeCasts_S128_S1x128 := by
  show StableHlo.after hostOps0 (W0 m ρ c) (Proc.devRef .tc main_v19) = _
  dsimp only [hostOps0]; after_results_simp <;> rfl

/-! ## The entry of region 1 -/

/-- Region 1 reads the hidden features where region 0's write-backs left them. -/
theorem entry1_h (c : Dev nD) : V3 m ρ c main_v20 = (dat0 (V1 m ρ) c).arrAt 5 cfg0.N := by
  show StableHlo.after hostOps1 (W2 m ρ c) (Proc.devRef .tc main_v20) = _
  dsimp only [hostOps1]; after_results_simp
  exact W2_arr m ρ c 5
theorem entry1_ws (c : Dev nD) : V3 m ρ c main_arg6 = m ((c : Thread nD τ).loc main_arg6) := by
  show StableHlo.after hostOps1 (W2 m ρ c) (Proc.devRef .tc main_arg6) = _
  dsimp only [hostOps1]; after_results_simp
  exact (W2_of_ne m ρ c main_arg6 (by decide)).trans (entry0_w6 m ρ c)
theorem entry1_wn (c : Dev nD) : V3 m ρ c main_arg7 = m ((c : Thread nD τ).loc main_arg7) := by
  show StableHlo.after hostOps1 (W2 m ρ c) (Proc.devRef .tc main_arg7) = _
  dsimp only [hostOps1]; after_results_simp
  exact (W2_of_ne m ρ c main_arg7 (by decide)).trans (entry0_w7 m ρ c)

set_option maxHeartbeats 4000000 in
/-- The aggregated features region 1 reads are the mean aggregation of region 0's output array. -/
theorem entry1_agg (c : Dev nD) :
    V3 m ρ c main_v39 = meanAgg ((dat0 (V1 m ρ) c).arrAt 5 cfg0.N) (m ((c : Thread nD τ).loc main_arg1)) (m ((c : Thread nD τ).loc main_arg2)) := by
  show StableHlo.after hostOps1 (W2 m ρ c) (Proc.devRef .tc main_v39) = _
  dsimp only [hostOps1]; after_results_simp
  rw [show W2 m ρ c (Proc.devRef .tc main_v20) = (dat0 (V1 m ρ) c).arrAt 5 cfg0.N from W2_arr m ρ c 5,
    show W2 m ρ c (Proc.devRef .tc main_arg1) = m ((c : Thread nD τ).loc main_arg1) from (W2_of_ne m ρ c main_arg1 (by decide)).trans (entry0_src m ρ c),
    show W2 m ρ c (Proc.devRef .tc main_arg2) = m ((c : Thread nD τ).loc main_arg2) from (W2_of_ne m ρ c main_arg2 (by decide)).trans (entry0_dst m ρ c)]
  rfl

/-- The bias region 1 reads is the launch bias as a one-by-one matrix. -/
theorem entry1_bias (c : Dev nD) :
    V3 m ρ c main_v40 = shapeCast S1x1 (m ((c : Thread nD τ).loc main_arg8)) shapeCasts_S1_S1x1 := by
  show StableHlo.after hostOps1 (W2 m ρ c) (Proc.devRef .tc main_v40) = _
  dsimp only [hostOps1]; after_results_simp
  rw [show W2 m ρ c (Proc.devRef .tc main_arg8) = m ((c : Thread nD τ).loc main_arg8) from (W2_of_ne m ρ c main_arg8 (by decide)).trans (entry0_b8 m ρ c)]
  rfl

end Cert.KernelIdeal.SageHost

end
-- ==== Proof.KernelValue.lean ====
/-
  THE KERNEL PROGRAM'S VALUE.  Chaining the four segments: the first host stretch aggregates the launch features and
  reshapes the first bias; region 0 leaves the hidden layer of those in its output array; the second host stretch
  aggregates THAT array and reshapes the second bias; region 1 leaves the output layer of those in the result array.
  So the result is

      out( h, agg(h) )   with   h = hidden( x, agg(x) ),

  a function of the nine launch arrays alone, the aggregation `agg` carried unopened.
-/
import proofs.«141958_j5446018532030_1_alg».proof.Proof.KernelRun
import proofs.«141958_j5446018532030_1_alg».proof.Proof.KernelBlocks
import proofs.«141958_j5446018532030_1_alg».proof.Proof.KernelHost

set_option maxRecDepth 16384

noncomputable section

namespace Cert.KernelIdeal.SageValue

open Cert.KernelIdeal Cert.KernelIdeal.Gen
open Cert.KernelIdeal.SageRun Cert.KernelIdeal.SageBlocks Cert.KernelIdeal.SageHost
open Idealize.ShloMosaic Idealize.ShloMosaic.TcCoe Idealize.SL.Sem Idealize.ShloMosaic.ValueIdx Cert.Sage

/-- A length-M vector viewed as a one-row matrix reads, at (0, q), the vector at q. -/
theorem row_cast_apply {M : Nat} {α : Type} (b : (⟨1, ![M]⟩ : Shape).Idx → α)
    (h : (⟨1, ![M]⟩ : Shape).ShapeCasts ⟨2, ![1, M]⟩) (q : Fin M) :
    shapeCast ⟨2, ![1, M]⟩ b h (ix2 0 q) = b (ix1 q) :=
  shapeCast_apply b h (ix2 0 q) (ix1 q) (by
    rw [Shape.rowMajor_val_one, Shape.rowMajor_val_two]
    show q.val = 0 * M + q.val
    omega)

/-- The hidden activations as a function of the launch arrays. -/
def hiddenK (x : S10000x128.Idx → EReal) (src dst : S640000.Idx → BitVec 32) (ws wn : S128x128.Idx → EReal)
    (b : S128.Idx → EReal) : S10000x128.Idx → EReal :=
  reluLayer (N := 10000) (K := 128) (M := 128) x (meanAgg (F := Ideal) x src dst) ws wn (fun q => b (ix1 q))

/-- The result as a function of the launch arrays. -/
def resultK (x : S10000x128.Idx → EReal) (src dst : S640000.Idx → BitVec 32) (ws1 wn1 : S128x128.Idx → EReal)
    (b1 : S128.Idx → EReal) (ws2 wn2 : S128x1.Idx → EReal) (b2 : S1.Idx → EReal) : S10000x1.Idx → EReal :=
  sigmoidLayer (N := 10000) (K := 128) (M := 1) (hiddenK x src dst ws1 wn1 b1)
    (meanAgg (F := Ideal) (hiddenK x src dst ws1 wn1 b1) src dst) ws2 wn2 (fun q => b2 (ix1 q))

variable (m : (ℓ : Loc nD τ sig) → Buf (Elt Ideal) ℓ) (ρ : Dev nD → PrngReg)

/-- Region 0 leaves the hidden activations of the launch arrays. -/
theorem hidden_value (c : Dev nD) :
    SageBlocks.hidden (V1 m ρ) c = hiddenK (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  unfold SageBlocks.hidden hiddenK
  rw [entry0_x, entry0_agg, entry0_ws, entry0_wn, entry0_bias]
  refine congrArg (reluLayer (N := 10000) (K := 128) (M := 128) _ _ _ _) (funext fun q => ?_)
  exact row_cast_apply _ _ q

/-- The result array at the last boundary is the result function of the launch arrays. -/
theorem value (c : Dev nD) :
    W4 m ρ c (Proc.devRef .tc main_v41) = resultK (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  rw [result_eq, final1]
  unfold SageBlocks.output resultK
  rw [entry1_h, entry1_agg, final0, hidden_value, entry1_ws, entry1_wn, entry1_bias]
  refine congrArg (sigmoidLayer (N := 10000) (K := 128) (M := 1) _ _ _ _) (funext fun q => ?_)
  exact row_cast_apply _ _ q

/-- The kernel program's run: the result is the result function of the launch arrays, the arguments end unchanged. -/
theorem run : θ_run defs (onTc (τ := τ) (main (F := Ideal))) ⟨m, fun _ => 0, ρ⟩ (fun r => ∀ c : Dev nD,
      r.2.mem ((c.tc : Thread nD τ).loc main_v41) = resultK (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (value m ρ c), (h c).2⟩) (run_result m ρ)

end Cert.KernelIdeal.SageValue

end
-- ==== Proof.RefValue.lean ====
/-
  THE REFERENCE AS TWO LAYERS.  The reference computes, on whole arrays, the hidden layer

      h = max( x·W_self1 + agg(x)·W_neigh1 + b1 , 0 )

  and the output layer  1 / (1 + exp(-( h·W_self2 + agg(h)·W_neigh2 + b2 ))),  where `agg` is the mean aggregation over
  the edge list (the generated stage of its quotient, a function of the feature array and the two index arrays, which
  is never opened here).  Read at an index through the generated one-operation-at-a-time lemmas, each stage is the
  specification's layer: a host `dot_general` is the contraction sum, a bias broadcast reads its column, and jax's
  expansion of the logistic function is the extended reals' logistic function once the f32 word of one is read as 1.
-/
import proofs.«141958_j5446018532030_1_alg».proof.Proof.Gen.ReferenceIdeal.Read
import proofs.«141958_j5446018532030_1_alg».proof.Proof.Spec
import Idealize.ShloMosaic.Lib.IdealHost

noncomputable section

namespace Cert.ReferenceIdeal.SageRef

open Cert.ReferenceIdeal Cert.ReferenceIdeal.Gen Cert.ReferenceIdeal.Read
open Idealize.ShloMosaic Idealize.ShloMosaic.ValueIdx Cert.Sage

/-- The hidden activations, as a function of the arguments, are the specification's hidden layer of the features and
    their mean aggregation. -/
theorem hidden_eq (x0 : (⟨S10000x128, .f32⟩ : BufTy).Contents (Elt Ideal)) (x1 x2 : (⟨S640000, .i32⟩ : BufTy).Contents (Elt Ideal))
    (x3 x4 : (⟨S128x128, .f32⟩ : BufTy).Contents (Elt Ideal)) (x5 : (⟨S128, .f32⟩ : BufTy).Contents (Elt Ideal)) :
    val_main_v25 (F := Ideal) x0 x1 x2 x3 x4 x5
      = reluLayer (N := 10000) (K := 128) (M := 128) x0 (val_main_v18 (F := Ideal) x0 x1 x2) x3 x4 (fun q => x5 (ix1 q)) := by
  funext i
  rw [val_main_v25_apply, val_main_v24_apply, val_main_v21_apply, val_main_v19_apply, val_main_v20_apply,
    val_main_v23_apply, val_main_v22_apply, val_main_call0_v0_apply, val_main_call0_cst_apply]
  have l19 : ∀ k, lidx_main_v19 i k = ix2 (i 0) k := fun k => funext fun a => by match a with | ⟨0, _⟩ => rfl | ⟨1, _⟩ => rfl
  have r19 : ∀ k, ridx_main_v19 i k = ix2 k (i 1) := fun k => funext fun a => by match a with | ⟨0, _⟩ => rfl | ⟨1, _⟩ => rfl
  have l20 : ∀ k, lidx_main_v20 i k = ix2 (i 0) k := fun k => funext fun a => by match a with | ⟨0, _⟩ => rfl | ⟨1, _⟩ => rfl
  have r20 : ∀ k, ridx_main_v20 i k = ix2 k (i 1) := fun k => funext fun a => by match a with | ⟨0, _⟩ => rfl | ⟨1, _⟩ => rfl
  have hb : idx_main_v22 (idx_main_v23 i) = ix1 (i 1) := funext fun a => by match a with | ⟨0, _⟩ => rfl
  simp only [l19, r19, l20, r20, hb]
  rfl

/-- The second aggregation is the same function of the hidden activations that the first is of the features. -/
theorem agg2_eq (x0 : (⟨S10000x128, .f32⟩ : BufTy).Contents (Elt Ideal)) (x1 x2 : (⟨S640000, .i32⟩ : BufTy).Contents (Elt Ideal))
    (x3 x4 : (⟨S128x128, .f32⟩ : BufTy).Contents (Elt Ideal)) (x5 : (⟨S128, .f32⟩ : BufTy).Contents (Elt Ideal)) :
    val_main_v44 (F := Ideal) x0 x1 x2 x3 x4 x5 = val_main_v18 (F := Ideal) (val_main_v25 (F := Ideal) x0 x1 x2 x3 x4 x5) x1 x2 := rfl

/-- The result, as a function of the arguments, is the specification's output layer of the hidden activations and
    their mean aggregation. -/
theorem out_eq (x0 : (⟨S10000x128, .f32⟩ : BufTy).Contents (Elt Ideal)) (x1 x2 : (⟨S640000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x1, .f32⟩ : BufTy).Contents (Elt Ideal)) (x8 : (⟨S1, .f32⟩ : BufTy).Contents (Elt Ideal)) :
    val_main_v56 (F := Ideal) x0 x1 x2 x3 x4 x5 x6 x7 x8
      = sigmoidLayer (N := 10000) (K := 128) (M := 1) (val_main_v25 (F := Ideal) x0 x1 x2 x3 x4 x5)
          (val_main_v18 (F := Ideal) (val_main_v25 (F := Ideal) x0 x1 x2 x3 x4 x5) x1 x2) x6 x7 (fun q => x8 (ix1 q)) := by
  funext i
  rw [val_main_v56_apply, val_main_v55_apply, val_main_cst_11_apply, val_main_v54_apply, val_main_v53_apply,
    val_main_cst_10_apply, val_main_v52_apply, val_main_v51_apply, val_main_v50_apply, val_main_v47_apply,
    val_main_v45_apply, val_main_v46_apply, val_main_v49_apply, val_main_v48_apply, agg2_eq]
  have l45 : ∀ k, lidx_main_v45 i k = ix2 (i 0) k := fun k => funext fun a => by match a with | ⟨0, _⟩ => rfl | ⟨1, _⟩ => rfl
  have r45 : ∀ k, ridx_main_v45 i k = ix2 k (i 1) := fun k => funext fun a => by match a with | ⟨0, _⟩ => rfl | ⟨1, _⟩ => rfl
  have l46 : ∀ k, lidx_main_v46 i k = ix2 (i 0) k := fun k => funext fun a => by match a with | ⟨0, _⟩ => rfl | ⟨1, _⟩ => rfl
  have r46 : ∀ k, ridx_main_v46 i k = ix2 k (i 1) := fun k => funext fun a => by match a with | ⟨0, _⟩ => rfl | ⟨1, _⟩ => rfl
  have hb : idx_main_v48 (idx_main_v49 i) = ix1 (i 1) := funext fun a => by
    match a with | ⟨0, _⟩ => exact Fin.ext (by have h1 : (i 1).val < 1 := (i 1).isLt; show 0 = (i 1).val; omega)
  simp only [l45, r45, l46, r46, hb]
  show Ideal.div (Ideal.ofBits .f32 0x3F800000#32) (Ideal.ofBits .f32 0x3F800000#32 + Ideal.exp (- _)) = Ideal.logistic _
  rw [Ideal.ofBits_one_f32]
  rfl

end Cert.ReferenceIdeal.SageRef

end
-- ==== Proof.lean ====
/-
  A two-layer GraphSAGE forward pass (mean aggregation): the kernel program against its reference, on the extended reals.

  Both programs compute, from the node features `x : [10000, 128]`, an edge list `src, dst : [640000]` and the layer
  parameters,

      h   = max( x·W_self1 + agg(x)·W_neigh1 + b1 , 0 )                     (hidden layer)
      out = 1 / (1 + exp(-( h·W_self2 + agg(h)·W_neigh2 + b2 )))            (output layer)

  where `agg` is the mean of the source rows over the incoming edges of each node: wrapped source indices, a row
  gather, a scatter-add at the destinations, and the quotient by the in-degree or one.  The two programs run `agg` as
  the SAME host operations, so it is carried through as one function and never opened: no property of the gather or
  of the scatter-add is used, and out-of-range indices need no precondition.

  The kernel program computes each layer in a pallas region, five row tiles of 2000 rows each: a tile's matrix products
  are matmuls of the tile (rounded to bf16, which changes nothing on the extended reals) into a zero accumulator, the
  bias is a one-row block broadcast down the tile, and the output layer applies the logistic operation.  The reference
  computes each layer on whole arrays with `dot_general`, and spells the logistic function out as negate, exponential,
  add one, divide into one.  On the extended reals a matmul into zero and a `dot_general` are the same contraction sum
  Σ_k l[r,k]·w[k,c], a layer's entry at row r reads only row r of its feature operands (so a tile of the layer is the
  layer of the tile), the tiles cover the rows, and the logistic operation IS that quotient.  The two results are
  therefore the same function of the arguments, term for term; no addition is reordered, nothing is distributed or
  cancelled, and the finiteness precondition is not used.

  The three frames are the generated ones (the reference's is its generated run with the result dropped); the ideal
  pass rewrote nothing, so the preservation claim is trivial.
-/
import proofs.«141958_j5446018532030_1_alg».proof.Defs
import proofs.«141958_j5446018532030_1_alg».proof.Proof.Gen.Kernel
import proofs.«141958_j5446018532030_1_alg».proof.Proof.Gen.Kernel.Skeleton
import proofs.«141958_j5446018532030_1_alg».proof.Proof.Gen.Kernel.Launch
import proofs.«141958_j5446018532030_1_alg».proof.Proof.Gen.Kernel.Points
import proofs.«141958_j5446018532030_1_alg».proof.Proof.Gen.Kernel.Frame
import proofs.«141958_j5446018532030_1_alg».proof.Proof.Gen.KernelIdeal
import proofs.«141958_j5446018532030_1_alg».proof.Proof.Gen.KernelIdeal.Skeleton
import proofs.«141958_j5446018532030_1_alg».proof.Proof.Gen.KernelIdeal.Launch
import proofs.«141958_j5446018532030_1_alg».proof.Proof.Gen.KernelIdeal.Points
import proofs.«141958_j5446018532030_1_alg».proof.Proof.Gen.KernelIdeal.Frame
import proofs.«141958_j5446018532030_1_alg».proof.Proof.Gen.ReferenceIdeal
import proofs.«141958_j5446018532030_1_alg».proof.Proof.Gen.Pre_finite_inputs
import proofs.«141958_j5446018532030_1_alg».proof.Proof.Gen.ReferenceIdeal.Run
import proofs.«141958_j5446018532030_1_alg».proof.Proof.Gen.ReferenceIdeal.Read
import proofs.«141958_j5446018532030_1_alg».proof.Proof.KernelValue
import proofs.«141958_j5446018532030_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel program runs and leaves its arguments unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The mean aggregation of the kernel program's host stretches is the reference's: the same operations. -/
theorem agg_eq (x : Cert.KernelIdeal.S10000x128.Idx → EReal) (src dst : Cert.KernelIdeal.S640000.Idx → BitVec 32) :
    Cert.KernelIdeal.SageHost.meanAgg (F := Ideal) x src dst = Cert.ReferenceIdeal.Read.val_main_v18 (F := Ideal) x src dst := rfl

/-- From memories agreeing on the arguments, both idealized programs end with the same result array: the output
    layer of the hidden layer, each layer taking the mean aggregation of its input features. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.SageValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v56_eq, h0, h1, h2, h3, h4, h5, h6, h7, h8,
    Cert.ReferenceIdeal.SageRef.out_eq, Cert.ReferenceIdeal.SageRef.hidden_eq]
  unfold Cert.KernelIdeal.SageValue.resultK Cert.KernelIdeal.SageValue.hiddenK
  simp only [agg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
